-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S4096x1024 : Shape := ⟨2, ![4096, 1024]⟩
abbrev S4x1024x1024 : Shape := ⟨3, ![4, 1024, 1024]⟩
abbrev S4x1024 : Shape := ⟨2, ![4, 1024]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4x1024, .f32⟩
  | .hbm, ⟨12, _⟩ => ⟨S1x4096, .f32⟩
  | .hbm, ⟨13, _⟩ => ⟨S4096x1024, .f32⟩
  | .hbm, ⟨14, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x1024x1024_S4096x1024 : S4x1024x1024.ShapeCasts S4096x1024
  bitsLt_bf16_f32 : FTy.bits .bf16 < FTy.bits .f32
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x1x1024 : Shape := ⟨3, ![4, 1, 1024]⟩
abbrev S1x4096x1024 : Shape := ⟨3, ![1, 4096, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x4096, .f32⟩
  | .hbm, ⟨8, _⟩ => ⟨S4x4096x1024, .f32⟩
  | .hbm, ⟨9, _⟩ => ⟨S4x1x1024, .f32⟩
  | .hbm, ⟨10, _⟩ => ⟨S4x4096x1024, .f32⟩
  | .hbm, ⟨11, _⟩ => ⟨S4x4096x1024, .f32⟩
  | .hbm, ⟨12, _⟩ => ⟨S4x1024x4096, .f32⟩
  | .hbm, ⟨13, _⟩ => ⟨S4x4096x1024, .f32⟩
  | .hbm, ⟨14, _⟩ => ⟨S4x1x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S1x4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S1x4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S1x4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S1x4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x1024x4096_S4x4096x1024_0_2_1 : S4x1024x4096.Transposes [0, 2, 1] S4x4096x1024
  bcast_S4x1024_S4x1x1024_0_2 : S4x1024.BroadcastsInDim S4x1x1024 (![0, 2] : Fin 2 → Fin S4x1x1024.rank)
  bcast_S4x1x1024_S4x4096x1024_0_1_2 : S4x1x1024.BroadcastsInDim S4x4096x1024 (![0, 1, 2] : Fin 3 → Fin S4x4096x1024.rank)
  slices_S4x4096x1024_S1x4096x1024_0_0_0 : S4x4096x1024.Slices ![0, 0, 0] S1x4096x1024
  shapeCasts_S1x4096x1024_S4096x1024 : S1x4096x1024.ShapeCasts S4096x1024
  bcast_S_S4096x1024 : S_.BroadcastsInDim S4096x1024 (![] : Fin 0 → Fin S4096x1024.rank)
  slices_S4x4096x1024_S1x4096x1024_1_0_0 : S4x4096x1024.Slices ![1, 0, 0] S1x4096x1024
  slices_S4x4096x1024_S1x4096x1024_2_0_0 : S4x4096x1024.Slices ![2, 0, 0] S1x4096x1024
  slices_S4x4096x1024_S1x4096x1024_3_0_0 : S4x4096x1024.Slices ![3, 0, 0] S1x4096x1024
  dot_S4x1024x1024_S4096x1024_S4x1024x4096_2_1_01_0_n_n_wf : DotDims.WF S4x1024x1024 S4096x1024 S4x1024x4096 [2] [1] [0, 1] [0] [] []

variable [Facts₀]

def dot_S4x1024x1024_S4096x1024_S4x1024x4096_2_1_01_0_n_n : DotDims S4x1024x1024 S4096x1024 S4x1024x4096 where
  lhsContracting := [2]
  rhsContracting := [1]
  lhsNonContracting := [0, 1]
  rhsNonContracting := [0]
  lhsBatch := []
  rhsBatch := []
  wf := dot_S4x1024x1024_S4096x1024_S4x1024x4096_2_1_01_0_n_n_wf

class Facts : Prop extends Facts₀ where

variable [Facts]
-- ==== Proof.LstmSpec.lean ====
/-
  The LSTM cell as a function of its seven argument arrays, on the extended reals.

  For a batch row `b` and a hidden unit `j`, gate `g` (0 = input, 1 = forget, 2 = output, 3 = candidate) has the
  pre-activation

      gate g b j = (∑ₖ x[b,k]·W[g,j,k] + ∑ₖ h[b,k]·U[g,j,k]) + (bW[g,j] + bU[g,j]),

  the new cell state is `σ(gate 0)·tanh(gate 3) + σ(gate 1)·c[b,j]` and the new hidden state is
  `σ(gate 2)·tanh(new cell)`, with `σ` the logistic function `1 / (1 + e^(-t))`.

  The two programs group the four summands of a pre-activation differently: one adds the two dot products and then the
  sum of the two biases, the other adds each bias to its own dot product and then the two results; and one multiplies
  activation by weight where the other multiplies weight by activation. Addition and multiplication of extended reals
  are commutative and addition is associative, with no side condition at the infinities, so the two groupings are one
  value (`gate_biasFirst`) and nothing here asks the inputs to be finite.
-/
import Idealize.ShloMosaic.PureOps.Ideal
import Idealize.ShloMosaic.Lib.ValueIdx

noncomputable section

namespace Cert.LstmSpec

open Idealize.ShloMosaic Idealize.ShloMosaic.ValueIdx

/-- A rank-2 array of extended reals. -/
abbrev Mat (r c : Nat) : Type := (⟨2, ![r, c]⟩ : Shape).Idx → EReal
/-- A rank-3 array of extended reals. -/
abbrev Ten (a b c : Nat) : Type := (⟨3, ![a, b, c]⟩ : Shape).Idx → EReal

variable (x h c : Mat 4096 1024) (W U : Ten 4 1024 1024) (bW bU : Mat 4 1024)

/-- The pre-activation of gate `g` at batch row `b`, hidden unit `j`: the two dot products, then the two biases. -/
def gate (g : Fin 4) (b : Fin 4096) (j : Fin 1024) : EReal :=
  ((∑ k : Fin 1024, x (ix2 b k) * W (ix3 g j k)) + (∑ k : Fin 1024, h (ix2 b k) * U (ix3 g j k)))
    + (bW (ix2 g j) + bU (ix2 g j))

/-- The new cell state: input gate times candidate, plus forget gate times the old cell state. -/
def cellNew (b : Fin 4096) (j : Fin 1024) : EReal :=
  Ideal.logistic (gate x h W U bW bU 0 b j) * Ideal.tanh (gate x h W U bW bU 3 b j)
    + Ideal.logistic (gate x h W U bW bU 1 b j) * c (ix2 b j)

/-- The new hidden state: output gate times the hyperbolic tangent of the new cell state. -/
def hidNew (b : Fin 4096) (j : Fin 1024) : EReal :=
  Ideal.logistic (gate x h W U bW bU 2 b j) * Ideal.tanh (cellNew x h c W U bW bU b j)

/-- The new cell state as a whole array. -/
def cellArr : Mat 4096 1024 := fun i => cellNew x h c W U bW bU (i 0) (i 1)

/-- The new hidden state as a whole array. -/
def hidArr : Mat 4096 1024 := fun i => hidNew x h c W U bW bU (i 0) (i 1)

/-- Each bias added to its own dot product (weight times activation), then the two results added: the same
    pre-activation, by commutativity of the product and by `(a + b) + (c + d) = (a + c) + (b + d)`. -/
theorem gate_biasFirst (g : Fin 4) (b : Fin 4096) (j : Fin 1024) :
    ((∑ k : Fin 1024, W (ix3 g j k) * x (ix2 b k)) + bW (ix2 g j))
      + ((∑ k : Fin 1024, U (ix3 g j k) * h (ix2 b k)) + bU (ix2 g j)) = gate x h W U bW bU g b j := by
  have e1 : (∑ k : Fin 1024, W (ix3 g j k) * x (ix2 b k)) = ∑ k : Fin 1024, x (ix2 b k) * W (ix3 g j k) :=
    Finset.sum_congr rfl fun k _ => mul_comm _ _
  have e2 : (∑ k : Fin 1024, U (ix3 g j k) * h (ix2 b k)) = ∑ k : Fin 1024, h (ix2 b k) * U (ix3 g j k) :=
    Finset.sum_congr rfl fun k _ => mul_comm _ _
  rw [e1, e2, add_add_add_comm]
  rfl

/-- The float word `0x3F800000` is the number one. -/
theorem ofBits_one : Ideal.ofBits .f32 0x3F800000#32 = 1 := by
  simp [Ideal.ofBits, Ideal.ieee, -EReal.coe_mul]; norm_num

/-- The logistic function spelt with a negation, an exponential, a sum and a quotient whose two ones are the float
    word `0x3F800000`. -/
theorem logistic_spelt (t : EReal) :
    Ideal.div (Ideal.ofBits .f32 0x3F800000#32) (Ideal.ofBits .f32 0x3F800000#32 + Ideal.exp (-t)) = Ideal.logistic t := by
  rw [ofBits_one]; rfl

end Cert.LstmSpec

end
-- ==== Proof.GatePayload.lean ====
/-
  The kernel body's pre-activation block, read at an index, on the extended reals.

  Inside one grid step the body holds a block of 256 batch rows of `x` and of `h`, all 4096 rows of each stacked
  weight matrix (gate-major: row `n` is gate `n / 1024`, hidden unit `n % 1024`) and the 4096 summed biases as one
  row. It contracts the last axis of the activations with the last axis of the weights, twice, adds the two products and
  then the bias row broadcast down the 256 rows. So the entry at row `r`, column `n` is

      (∑ₖ x[r,k]·w[n,k] + ∑ₖ h[r,k]·u[n,k]) + bias[0,n].

  A change of float format is the identity on extended reals, a matrix product into a zero accumulator is the plain sum
  of products, and a shape cast to the same shape is the identity.
-/
import proofs.«151463_j80891414053127_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.GatePayload

open Cert.KernelIdeal Cert.KernelIdeal.Gen Idealize.ShloMosaic Idealize.ShloMosaic.ValueIdx

/-! ## The contraction's index maps: output (row, column) and position `k` to the operands' indices -/

theorem lhs_row (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl

theorem lhs_pos (i : S256x4096.Idx) (q : dot_S256x1024_S4096x1024_S256x4096_1_1_0_0_n_n.contr.Idx) :
    (dot_S256x1024_S4096x1024_S256x4096_1_1_0_0_n_n.lhsIdx i q 1).val = (q ⟨0, by decide⟩).val :=
  dot_S256x1024_S4096x1024_S256x4096_1_1_0_0_n_n.lhsIdx_val_of_single rfl i q

theorem rhs_row (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl

theorem rhs_pos (i : S256x4096.Idx) (q : dot_S256x1024_S4096x1024_S256x4096_1_1_0_0_n_n.contr.Idx) :
    (dot_S256x1024_S4096x1024_S256x4096_1_1_0_0_n_n.rhsIdx i q 1).val = (q ⟨0, by decide⟩).val :=
  dot_S256x1024_S4096x1024_S256x4096_1_1_0_0_n_n.rhsIdx_val_of_single rfl i q

/-- The matrix product of a [256, 1024] block with a [4096, 1024] matrix over their last axes, into zero, at
    (row `r`, column `n`): the sum over `k` of `a[r,k]·b[n,k]`. -/
theorem matmul_at (a : FVec Ideal S256x1024 .bf16) (b : FVec Ideal S4096x1024 .bf16) (r : Fin 256) (n : Fin 4096) :
    FloatOps.matmul dot_S256x1024_S4096x1024_S256x4096_1_1_0_0_n_n none a b (constant (F := Ideal) S256x4096 .f32 0x00000000#32)
      (ix2 r n) = ∑ k : Fin 1024, a (ix2 r k) * b (ix2 n k) := by
  rw [Ideal.matmul_constant_zero_apply,
    ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 r n)
      ((contrEquiv1 dot_S256x1024_S4096x1024_S256x4096_1_1_0_0_n_n 1024 rfl rfl).symm k) = ix2 r k :=
    funext fun d => Fin.ext (by
      match d with
      | ⟨0, _⟩ => exact lhs_row _ _
      | ⟨1, _⟩ => exact (lhs_pos _ _).trans hk)
  have er : dot_S256x1024_S4096x1024_S256x4096_1_1_0_0_n_n.rhsIdx (ix2 r n)
      ((contrEquiv1 dot_S256x1024_S4096x1024_S256x4096_1_1_0_0_n_n 1024 rfl rfl).symm k) = ix2 n k :=
    funext fun d => Fin.ext (by
      match d with
      | ⟨0, _⟩ => exact rhs_row _ _
      | ⟨1, _⟩ => exact (rhs_pos _ _).trans hk)
  rw [el, er]

/-- The bias row broadcast down the 256 rows, at (row `r`, column `n`): the bias at column `n`. -/
theorem biasRow_at (bias : FVec Ideal S1x4096 .f32) (r : Fin 256) (n : Fin 4096) :
    broadcastTo S256x4096 bias broadcasts_S1x4096_S256x4096 (ix2 r n) = bias (ix2 0 n) :=
  broadcastTo_apply bias broadcasts_S1x4096_S256x4096 (ix2 r n) (ix2 0 n) (fun a => match a with
    | ⟨0, _⟩ => by show (0 : Nat) = if (1 : Nat) = 1 then 0 else _; rw [if_pos rfl]
    | ⟨1, _⟩ => by show n.val = if (4096 : Nat) = 1 then 0 else n.val; rw [if_neg (by decide)])

/-- THE PRE-ACTIVATION BLOCK at (row `r`, column `n`): the two dot products of row `r` of the activations with row `n`
    of the stacked weights, then the summed bias of column `n`. -/
theorem preact_at (x h : Vec Ideal S256x1024 .f32) (w u : Vec Ideal S4096x1024 .bf16) (bias : Vec Ideal S1x4096 .f32)
    (r : Fin 256) (n : Fin 4096) :
    k0_pay1 (F := Ideal) x h w u bias (ix2 r n)
      = ((∑ k : Fin 1024, x (ix2 r k) * w (ix2 n k)) + (∑ k : Fin 1024, h (ix2 r k) * u (ix2 n k))) + bias (ix2 0 n) := by
  unfold k0_pay1
  show (FloatOps.matmul dot_S256x1024_S4096x1024_S256x4096_1_1_0_0_n_n none (truncf .bf16 x bitsLt_bf16_f32)
          (shapeCast S4096x1024 w shapeCasts_S4096x1024_S4096x1024) (constant (F := Ideal) S256x4096 .f32 0x00000000#32) (ix2 r n)
        + FloatOps.matmul dot_S256x1024_S4096x1024_S256x4096_1_1_0_0_n_n none (truncf .bf16 h bitsLt_bf16_f32)
          (shapeCast S4096x1024 u shapeCasts_S4096x1024_S4096x1024) (constant (F := Ideal) S256x4096 .f32 0x00000000#32) (ix2 r n))
      + broadcastTo S256x4096 (shapeCast S1x4096 bias shapeCasts_S1x4096_S1x4096) broadcasts_S1x4096_S256x4096 (ix2 r n) = _
  rw [shapeCast_self w, shapeCast_self u, shapeCast_self bias, matmul_at, matmul_at, biasRow_at]
  rfl

end Cert.KernelIdeal.GatePayload

end
-- ==== Proof.StackedWeights.lean ====
/-
  What the kernel's three resident windows hold when the region is entered, on the extended reals.

  Before the region the host merges the two leading axes of each weight tensor, `[4, 1024, 1024] → [4096, 1024]`, and
  changes its float format (the identity here); and it adds the two bias arrays and lays the `[4, 1024]` sum out as one
  row `[1, 4096]`. A reshape keeps the row-major position, so row `n = 1024·g + j` of a merged weight matrix is the
  `[g, j, ·]` row of the tensor, and column `n` of the bias row is `bW[g, j] + bU[g, j]`: the stacking is gate-major.
-/
import proofs.«151463_j80891414053127_2_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.StackedWeights

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The seven argument arrays as launched, as plain functions of an index -/

abbrev argX (c : Dev nD) : S4096x1024.Idx → EReal := m ((c : Thread nD τ).loc main_arg0)
abbrev argH (c : Dev nD) : S4096x1024.Idx → EReal := m ((c : Thread nD τ).loc main_arg1)
abbrev argC (c : Dev nD) : S4096x1024.Idx → EReal := m ((c : Thread nD τ).loc main_arg2)
abbrev argW (c : Dev nD) : S4x1024x1024.Idx → EReal := m ((c : Thread nD τ).loc main_arg3)
abbrev argBW (c : Dev nD) : S4x1024.Idx → EReal := m ((c : Thread nD τ).loc main_arg4)
abbrev argU (c : Dev nD) : S4x1024x1024.Idx → EReal := m ((c : Thread nD τ).loc main_arg5)
abbrev argBU (c : Dev nD) : S4x1024.Idx → EReal := m ((c : Thread nD τ).loc main_arg6)

/-- The input-to-hidden weights as the region finds them: the tensor with its two leading axes merged. -/
theorem wCat_eq (c : Dev nD) :
    @Eq (S4096x1024.Idx → EReal) (V m c main_v1)
      (truncf (F := Ideal) .bf16 (shapeCast S4096x1024 (argW m c) shapeCasts_S4x1024x1024_S4096x1024) bitsLt_bf16_f32) := by
  dsimp only [V, hostOps0]; after_results; rfl

/-- The hidden-to-hidden weights as the region finds them. -/
theorem uCat_eq (c : Dev nD) :
    @Eq (S4096x1024.Idx → EReal) (V m c main_v3)
      (truncf (F := Ideal) .bf16 (shapeCast S4096x1024 (argU m c) shapeCasts_S4x1024x1024_S4096x1024) bitsLt_bf16_f32) := by
  dsimp only [V, hostOps0]; after_results; rfl

/-- The bias row as the region finds it: the sum of the two bias arrays, as one row. -/
theorem biasCat_eq (c : Dev nD) :
    @Eq (S1x4096.Idx → EReal) (V m c main_v5)
      (shapeCast S1x4096 (addf (F := Ideal) (φ := .f32) (argBW m c) (argBU m c)) shapeCasts_S4x1024_S1x4096) := by
  dsimp only [V, hostOps0]; after_results; rfl

/-- A `[4, 1024, 1024]` tensor with its leading axes merged, at row `n = 1024·g + j`: the tensor's `[g, j, ·]` row. -/
theorem merged_at (T : S4x1024x1024.Idx → EReal) (g : Fin 4) (j k : Fin 1024) (n : Fin 4096)
    (hn : n.val = g.val * 1024 + j.val) :
    shapeCast S4096x1024 T shapeCasts_S4x1024x1024_S4096x1024 (ix2 n k) = T (ix3 g j k) :=
  shapeCast_apply T shapeCasts_S4x1024x1024_S4096x1024 (ix2 n k) (ix3 g j k) (by
    rw [Shape.rowMajor_val_three, Shape.rowMajor_val_two]
    show (g.val * 1024 + j.val) * 1024 + k.val = n.val * 1024 + k.val
    omega)

/-- Row `n = 1024·g + j` of the stacked input-to-hidden weights is `W[g, j, ·]`. -/
theorem wCat_at (c : Dev nD) (g : Fin 4) (j k : Fin 1024) (n : Fin 4096) (hn : n.val = g.val * 1024 + j.val) :
    (V m c main_v1 : S4096x1024.Idx → EReal) (ix2 n k) = argW m c (ix3 g j k) :=
  (congrFun (wCat_eq m c) (ix2 n k)).trans (merged_at (argW m c) g j k n hn)

/-- Row `n = 1024·g + j` of the stacked hidden-to-hidden weights is `U[g, j, ·]`. -/
theorem uCat_at (c : Dev nD) (g : Fin 4) (j k : Fin 1024) (n : Fin 4096) (hn : n.val = g.val * 1024 + j.val) :
    (V m c main_v3 : S4096x1024.Idx → EReal) (ix2 n k) = argU m c (ix3 g j k) :=
  (congrFun (uCat_eq m c) (ix2 n k)).trans (merged_at (argU m c) g j k n hn)

/-- Column `n = 1024·g + j` of the bias row is `bW[g, j] + bU[g, j]`. -/
theorem biasCat_at (c : Dev nD) (g : Fin 4) (j : Fin 1024) (n : Fin 4096) (hn : n.val = g.val * 1024 + j.val) :
    (V m c main_v5 : S1x4096.Idx → EReal) (ix2 0 n)
      = argBW m c (ix2 g j) + argBU m c (ix2 g j) :=
  (congrFun (biasCat_eq m c) (ix2 0 n)).trans <|
  shapeCast_apply (addf (F := Ideal) (φ := .f32) (argBW m c) (argBU m c)) shapeCasts_S4x1024_S1x4096 (ix2 0 n) (ix2 g j) (by
    rw [Shape.rowMajor_val_two, Shape.rowMajor_val_two]
    show g.val * 1024 + j.val = 0 * 4096 + n.val
    omega)

end Cert.KernelIdeal.StackedWeights

end
-- ==== Proof.KernelCell.lean ====
/-
  The kernel's two output arrays after the run are the LSTM cell of LstmSpec.

  Grid point `t` (of 16) handles batch rows `256·t … 256·t + 255`: it holds those rows of `x`, `h` and `c`, and the whole
  stacked weights and bias row, which do not move with `t`. The body's pre-activation block at (row `r`, column
  `1024·g + j`) is therefore gate `g` of the specification at batch row `256·t + r`, hidden unit `j`
  (`gate_of_block`): the stacking is gate-major, so row `1024·g + j` of a stacked weight matrix is `[g, j, ·]` of the
  tensor, and column `1024·g + j` of the bias row is `bW[g,j] + bU[g,j]`. The body slices the four gates out of the
  block's columns, applies the logistic function to three and the hyperbolic tangent to the fourth, and forms the new
  cell and hidden blocks pointwise, so what point `t` writes back is block `t` of the specification's arrays
  (`flushed7_eq`, `flushed6_eq`). The 16 blocks tile the 4096 rows (row `b` is in block `b / 256`), so the arrays
  after the run are the specification's (`final7`, `final6`), and the run is re-posted with both named (`run`).
-/
import proofs.«151463_j80891414053127_2_alg».proof.Proof.Gen.KernelIdeal.Value
import proofs.«151463_j80891414053127_2_alg».proof.Proof.LstmSpec
import proofs.«151463_j80891414053127_2_alg».proof.Proof.GatePayload
import proofs.«151463_j80891414053127_2_alg».proof.Proof.StackedWeights

set_option maxRecDepth 16384

noncomputable section

namespace Cert.KernelIdeal.Cell

open Cert.KernelIdeal Cert.KernelIdeal.Gen Idealize.ShloMosaic Idealize.ShloMosaic.TcCoe Idealize.SL.Sem
open Idealize.ShloMosaic.ValueIdx Cert.KernelIdeal.GatePayload Cert.KernelIdeal.StackedWeights
open Idealize.ShloMosaic.Pipeline (Dat)

theorem hz : (![0, 0] : Fin 2 → Nat) = fun _ => 0 := funext fun a => by fin_cases a <;> rfl

/-! ## One grid step, over variables: the body's blocks from blocks that hold the right rows of the arrays -/

/-- THE PRE-ACTIVATION BLOCK IS THE SPECIFICATION'S GATE: if row `r` of the activation blocks is batch row `b` of the
    arrays, and row `n` of the stacked weights and column `n` of the bias row are gate `g`, hidden unit `j`, then the
    block at (`r`, `n`) is `gate g b j`. -/
theorem gate_of_block (x h : Vec Ideal S256x1024 .f32) (w u : Vec Ideal S4096x1024 .bf16) (bias : Vec Ideal S1x4096 .f32)
    (X H : LstmSpec.Mat 4096 1024) (W U : LstmSpec.Ten 4 1024 1024) (bW bU : LstmSpec.Mat 4 1024)
    (r : Fin 256) (b : Fin 4096) (g : Fin 4) (j : Fin 1024) (n : Fin 4096)
    (hx : ∀ k : Fin 1024, x (ix2 r k) = X (ix2 b k)) (hh : ∀ k : Fin 1024, h (ix2 r k) = H (ix2 b k))
    (hw : ∀ k : Fin 1024, w (ix2 n k) = W (ix3 g j k)) (hu : ∀ k : Fin 1024, u (ix2 n k) = U (ix3 g j k))
    (hb : bias (ix2 0 n) = bW (ix2 g j) + bU (ix2 g j)) :
    k0_pay1 (F := Ideal) x h w u bias (ix2 r n) = LstmSpec.gate X H W U bW bU g b j := by
  rw [preact_at]
  unfold LstmSpec.gate
  simp only [hx, hh, hw, hu, hb]

/-- Column `1024·g + j` of the pre-activation block: gate `g`, hidden unit `j`. -/
abbrev colOf (g : Fin 4) (j : Fin 1024) : Fin 4096 := ⟨g.val * 1024 + j.val, by have := g.isLt; have := j.isLt; omega⟩

/-- Batch row `256·t + r`: row `r` of grid point `t`'s blocks. -/
abbrev rowOf (t : Fin 16) (r : Fin 256) : Fin 4096 := ⟨t.val * 256 + r.val, by have := t.isLt; have := r.isLt; omega⟩

/-- The body's new-cell block at `(r, j)` is the specification's new cell state at batch row `b`, hidden unit `j`,
    when the input blocks hold batch row `b` in row `r` and the resident blocks are the gate-major stackings. -/
theorem cellBlock_at (x0 x1 x2 : Vec Ideal S256x1024 .f32) (x3 x4 : Vec Ideal S4096x1024 .bf16) (x5 : Vec Ideal S1x4096 .f32)
    (X H C : LstmSpec.Mat 4096 1024) (W U : LstmSpec.Ten 4 1024 1024) (bW bU : LstmSpec.Mat 4 1024) (r : Fin 256) (j : Fin 1024) (b : Fin 4096)
    (hx : ∀ k : Fin 1024, x0 (ix2 r k) = X (ix2 b k)) (hh : ∀ k : Fin 1024, x1 (ix2 r k) = H (ix2 b k))
    (hc : x2 (ix2 r j) = C (ix2 b j))
    (hw : ∀ (g : Fin 4) (n : Fin 4096), n.val = g.val * 1024 + j.val → ∀ k : Fin 1024, x3 (ix2 n k) = W (ix3 g j k))
    (hu : ∀ (g : Fin 4) (n : Fin 4096), n.val = g.val * 1024 + j.val → ∀ k : Fin 1024, x4 (ix2 n k) = U (ix3 g j k))
    (hb : ∀ (g : Fin 4) (n : Fin 4096), n.val = g.val * 1024 + j.val → x5 (ix2 0 n) = bW (ix2 g j) + bU (ix2 g j)) :
    out0_7 x0 x1 x2 x3 x4 x5 (ix2 r j) = LstmSpec.cellNew X H C W U bW bU b j := by
  have hr : r.val < 256 := r.isLt
  have hj : j.val < 1024 := j.isLt
  unfold out0_7
  simp only [View.ld_unit_zero (S := S256x1024) hz, View.ld_unit_zero (S := S4096x1024) hz, View.ld_unit_zero (S := S1x4096) hz]
  rw [Value.canon7_eq]
  have e0 : Value.ix7_0 (ix2 r j) = ix2 r (colOf 0 j) := funext fun a => Fin.ext (by
    match a with | ⟨0, _⟩ => rfl | ⟨1, _⟩ => show j.val = 0 * 1024 + j.val; omega)
  have e1 : Value.ix7_1 (ix2 r j) = ix2 r (colOf 3 j) := funext fun a => Fin.ext (by
    match a with | ⟨0, _⟩ => rfl | ⟨1, _⟩ => show j.val + 3072 = 3 * 1024 + j.val; omega)
  have e2 : Value.ix7_2 (ix2 r j) = ix2 r (colOf 1 j) := funext fun a => Fin.ext (by
    match a with | ⟨0, _⟩ => rfl | ⟨1, _⟩ => show j.val + 1024 = 1 * 1024 + j.val; omega)
  have e3 : Value.ix7_3 (ix2 r j) = ix2 r j := funext fun a => Fin.ext (by
    match a with | ⟨0, _⟩ => rfl | ⟨1, _⟩ => rfl)
  have g0 := gate_of_block x0 x1 x3 x4 x5 X H W U bW bU r b 0 j (colOf 0 j) hx hh (hw 0 _ rfl) (hu 0 _ rfl) (hb 0 _ rfl)
  have g3 := gate_of_block x0 x1 x3 x4 x5 X H W U bW bU r b 3 j (colOf 3 j) hx hh (hw 3 _ rfl) (hu 3 _ rfl) (hb 3 _ rfl)
  have g1 := gate_of_block x0 x1 x3 x4 x5 X H W U bW bU r b 1 j (colOf 1 j) hx hh (hw 1 _ rfl) (hu 1 _ rfl) (hb 1 _ rfl)
  show FloatOps.addf (FloatOps.mulf (FloatOps.logistic (k0_pay1 x0 x1 x3 x4 x5 (Value.ix7_0 (ix2 r j)))) (FloatOps.tanh (k0_pay1 x0 x1 x3 x4 x5 (Value.ix7_1 (ix2 r j)))))
      (FloatOps.mulf (FloatOps.logistic (k0_pay1 x0 x1 x3 x4 x5 (Value.ix7_2 (ix2 r j)))) (x2 (Value.ix7_3 (ix2 r j)))) = _
  rw [e0, e1, e2, e3, g0, g3, g1, hc]
  rfl

/-- The body's new-hidden block at `(r, j)` is the specification's new hidden state there, likewise. -/
theorem hidBlock_at (x0 x1 x2 : Vec Ideal S256x1024 .f32) (x3 x4 : Vec Ideal S4096x1024 .bf16) (x5 : Vec Ideal S1x4096 .f32)
    (X H C : LstmSpec.Mat 4096 1024) (W U : LstmSpec.Ten 4 1024 1024) (bW bU : LstmSpec.Mat 4 1024) (r : Fin 256) (j : Fin 1024) (b : Fin 4096)
    (hx : ∀ k : Fin 1024, x0 (ix2 r k) = X (ix2 b k)) (hh : ∀ k : Fin 1024, x1 (ix2 r k) = H (ix2 b k))
    (hc : x2 (ix2 r j) = C (ix2 b j))
    (hw : ∀ (g : Fin 4) (n : Fin 4096), n.val = g.val * 1024 + j.val → ∀ k : Fin 1024, x3 (ix2 n k) = W (ix3 g j k))
    (hu : ∀ (g : Fin 4) (n : Fin 4096), n.val = g.val * 1024 + j.val → ∀ k : Fin 1024, x4 (ix2 n k) = U (ix3 g j k))
    (hb : ∀ (g : Fin 4) (n : Fin 4096), n.val = g.val * 1024 + j.val → x5 (ix2 0 n) = bW (ix2 g j) + bU (ix2 g j)) :
    out0_6 x0 x1 x2 x3 x4 x5 (ix2 r j) = LstmSpec.hidNew X H C W U bW bU b j := by
  have hr : r.val < 256 := r.isLt
  have hj : j.val < 1024 := j.isLt
  unfold out0_6
  simp only [View.ld_unit_zero (S := S256x1024) hz, View.ld_unit_zero (S := S4096x1024) hz, View.ld_unit_zero (S := S1x4096) hz]
  rw [Value.canon6_eq]
  have e0 : Value.ix6_0 (ix2 r j) = ix2 r (colOf 2 j) := funext fun a => Fin.ext (by
    match a with | ⟨0, _⟩ => rfl | ⟨1, _⟩ => show j.val + 2048 = 2 * 1024 + j.val; omega)
  have e1 : Value.ix6_1 (ix2 r j) = ix2 r (colOf 0 j) := funext fun a => Fin.ext (by
    match a with | ⟨0, _⟩ => rfl | ⟨1, _⟩ => show j.val = 0 * 1024 + j.val; omega)
  have e2 : Value.ix6_2 (ix2 r j) = ix2 r (colOf 3 j) := funext fun a => Fin.ext (by
    match a with | ⟨0, _⟩ => rfl | ⟨1, _⟩ => show j.val + 3072 = 3 * 1024 + j.val; omega)
  have e3 : Value.ix6_3 (ix2 r j) = ix2 r (colOf 1 j) := funext fun a => Fin.ext (by
    match a with | ⟨0, _⟩ => rfl | ⟨1, _⟩ => show j.val + 1024 = 1 * 1024 + j.val; omega)
  have e4 : Value.ix6_4 (ix2 r j) = ix2 r j := funext fun a => Fin.ext (by
    match a with | ⟨0, _⟩ => rfl | ⟨1, _⟩ => rfl)
  have g0 := gate_of_block x0 x1 x3 x4 x5 X H W U bW bU r b 0 j (colOf 0 j) hx hh (hw 0 _ rfl) (hu 0 _ rfl) (hb 0 _ rfl)
  have g1 := gate_of_block x0 x1 x3 x4 x5 X H W U bW bU r b 1 j (colOf 1 j) hx hh (hw 1 _ rfl) (hu 1 _ rfl) (hb 1 _ rfl)
  have g2 := gate_of_block x0 x1 x3 x4 x5 X H W U bW bU r b 2 j (colOf 2 j) hx hh (hw 2 _ rfl) (hu 2 _ rfl) (hb 2 _ rfl)
  have g3 := gate_of_block x0 x1 x3 x4 x5 X H W U bW bU r b 3 j (colOf 3 j) hx hh (hw 3 _ rfl) (hu 3 _ rfl) (hb 3 _ rfl)
  show FloatOps.mulf (FloatOps.logistic (k0_pay1 x0 x1 x3 x4 x5 (Value.ix6_0 (ix2 r j))))
      (FloatOps.tanh (FloatOps.addf (FloatOps.mulf (FloatOps.logistic (k0_pay1 x0 x1 x3 x4 x5 (Value.ix6_1 (ix2 r j)))) (FloatOps.tanh (k0_pay1 x0 x1 x3 x4 x5 (Value.ix6_2 (ix2 r j)))))
        (FloatOps.mulf (FloatOps.logistic (k0_pay1 x0 x1 x3 x4 x5 (Value.ix6_3 (ix2 r j)))) (x2 (Value.ix6_4 (ix2 r j)))))) = _
  rw [e0, e1, e2, e3, e4, g2, g0, g3, g1, hc]
  rfl

/-! ## From blocks to the arrays -/

variable (m : (ℓ : Loc nD τ sig) → Buf (Elt Ideal) ℓ) (ρ : Dev nD → PrngReg)

/-- The printed index maps, decided over the 16 grid points: the three activation windows and the two output windows take
    block `t` along the batch axis, the three resident windows always their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- WHAT POINT `t` WRITES BACK to the cell-state array is block `t` of the specification's array. -/
theorem flushed7_eq (c : Dev nD) (t : Fin cfg0.N) :
    (dats m 0 c).flushed 7 t
      = ((cfg0.win 7).blk t).view.read (Elt Ideal) (LstmSpec.cellArr (argX m c) (argH m c) (argC m c) (argW m c) (argU m c) (argBW m c) (argBU m c)) := by
  rw [Value.flushed7]
  obtain ⟨a0, a0', a1, a1', a2, a2', a3, a3', a4, a4', a5, a5', a6, a6', a7, a7'⟩ := idx_facts t
  funext y
  obtain ⟨r, j, rfl⟩ : ∃ (r : Fin 256) (j : Fin 1024), y = ix2 r j := ⟨y 0, y 1, eq_ix2 y⟩
  have hr : r.val < 256 := r.isLt
  have hj : j.val < 1024 := j.isLt
  have ht : t.val < 16 := t.isLt
  show out0_7 (iblk m c 0 t) (iblk m c 1 t) (iblk m c 2 t) (iblk m c 3 t) (iblk m c 4 t) (iblk m c 5 t) (ix2 r j)
    = LstmSpec.cellArr (argX m c) (argH m c) (argC m c) (argW m c) (argU m c) (argBW m c) (argBU m c) (((cfg0.win 7).blk t).view.emb (ix2 r j))
  have eo : ((cfg0.win 7).blk t).view.emb (ix2 r j) = ix2 (rowOf t r) j := by
    funext a; apply Fin.ext
    match a with
    | ⟨0, _⟩ => show win0_7.index t (0 : Fin 2) * 256 + 1 * r.val = t.val * 256 + r.val; omega
    | ⟨1, _⟩ => show win0_7.index t (1 : Fin 2) * 1024 + 1 * j.val = j.val; omega
  rw [eo]
  refine (cellBlock_at _ _ _ _ _ _ (argX m c) (argH m c) (argC m c) (argW m c) (argU m c) (argBW m c) (argBU m c) r j (rowOf t r) ?_ ?_ ?_ ?_ ?_ ?_).trans rfl
  · intro k
    show V m c main_arg0 (((cfg0.win 0).blk t).view.emb (ix2 r k)) = argX m c (ix2 (rowOf t r) k)
    refine congrArg _ (funext fun a => Fin.ext ?_)
    match a with
    | ⟨0, _⟩ => show win0_0.index t (0 : Fin 2) * 256 + 1 * r.val = t.val * 256 + r.val; omega
    | ⟨1, _⟩ => show win0_0.index t (1 : Fin 2) * 1024 + 1 * k.val = k.val; omega
  · intro k
    show V m c main_arg1 (((cfg0.win 1).blk t).view.emb (ix2 r k)) = argH m c (ix2 (rowOf t r) k)
    refine congrArg _ (funext fun a => Fin.ext ?_)
    match a with
    | ⟨0, _⟩ => show win0_1.index t (0 : Fin 2) * 256 + 1 * r.val = t.val * 256 + r.val; omega
    | ⟨1, _⟩ => show win0_1.index t (1 : Fin 2) * 1024 + 1 * k.val = k.val; omega
  · show V m c main_arg2 (((cfg0.win 2).blk t).view.emb (ix2 r j)) = argC m c (ix2 (rowOf t r) j)
    refine congrArg _ (funext fun a => Fin.ext ?_)
    match a with
    | ⟨0, _⟩ => show win0_2.index t (0 : Fin 2) * 256 + 1 * r.val = t.val * 256 + r.val; omega
    | ⟨1, _⟩ => show win0_2.index t (1 : Fin 2) * 1024 + 1 * j.val = j.val; omega
  · intro g n hn k
    show V m c main_v1 (((cfg0.win 3).blk t).view.emb (ix2 n k)) = argW m c (ix3 g j k)
    have e : ((cfg0.win 3).blk t).view.emb (ix2 n k) = ix2 n k := by
      funext a; apply Fin.ext
      match a with
      | ⟨0, _⟩ => show win0_3.index t (0 : Fin 2) * 4096 + 1 * n.val = n.val; omega
      | ⟨1, _⟩ => show win0_3.index t (1 : Fin 2) * 1024 + 1 * k.val = k.val; omega
    rw [e]
    exact wCat_at m c g j k n hn
  · intro g n hn k
    show V m c main_v3 (((cfg0.win 4).blk t).view.emb (ix2 n k)) = argU m c (ix3 g j k)
    have e : ((cfg0.win 4).blk t).view.emb (ix2 n k) = ix2 n k := by
      funext a; apply Fin.ext
      match a with
      | ⟨0, _⟩ => show win0_4.index t (0 : Fin 2) * 4096 + 1 * n.val = n.val; omega
      | ⟨1, _⟩ => show win0_4.index t (1 : Fin 2) * 1024 + 1 * k.val = k.val; omega
    rw [e]
    exact uCat_at m c g j k n hn
  · intro g n hn
    show V m c main_v5 (((cfg0.win 5).blk t).view.emb (ix2 0 n)) = argBW m c (ix2 g j) + argBU m c (ix2 g j)
    have e : ((cfg0.win 5).blk t).view.emb (ix2 0 n) = ix2 0 n := by
      funext a; apply Fin.ext
      match a with
      | ⟨0, _⟩ => show win0_5.index t (0 : Fin 2) * 1 + 1 * 0 = 0; omega
      | ⟨1, _⟩ => show win0_5.index t (1 : Fin 2) * 4096 + 1 * n.val = n.val; omega
    rw [e]
    exact biasCat_at m c g j n hn

/-- WHAT POINT `t` WRITES BACK to the hidden-state array is block `t` of the specification's array. -/
theorem flushed6_eq (c : Dev nD) (t : Fin cfg0.N) :
    (dats m 0 c).flushed 6 t
      = ((cfg0.win 6).blk t).view.read (Elt Ideal) (LstmSpec.hidArr (argX m c) (argH m c) (argC m c) (argW m c) (argU m c) (argBW m c) (argBU m c)) := by
  rw [Value.flushed6]
  obtain ⟨a0, a0', a1, a1', a2, a2', a3, a3', a4, a4', a5, a5', a6, a6', a7, a7'⟩ := idx_facts t
  funext y
  obtain ⟨r, j, rfl⟩ : ∃ (r : Fin 256) (j : Fin 1024), y = ix2 r j := ⟨y 0, y 1, eq_ix2 y⟩
  have hr : r.val < 256 := r.isLt
  have hj : j.val < 1024 := j.isLt
  have ht : t.val < 16 := t.isLt
  show out0_6 (iblk m c 0 t) (iblk m c 1 t) (iblk m c 2 t) (iblk m c 3 t) (iblk m c 4 t) (iblk m c 5 t) (ix2 r j)
    = LstmSpec.hidArr (argX m c) (argH m c) (argC m c) (argW m c) (argU m c) (argBW m c) (argBU m c) (((cfg0.win 6).blk t).view.emb (ix2 r j))
  have eo : ((cfg0.win 6).blk t).view.emb (ix2 r j) = ix2 (rowOf t r) j := by
    funext a; apply Fin.ext
    match a with
    | ⟨0, _⟩ => show win0_6.index t (0 : Fin 2) * 256 + 1 * r.val = t.val * 256 + r.val; omega
    | ⟨1, _⟩ => show win0_6.index t (1 : Fin 2) * 1024 + 1 * j.val = j.val; omega
  rw [eo]
  refine (hidBlock_at _ _ _ _ _ _ (argX m c) (argH m c) (argC m c) (argW m c) (argU m c) (argBW m c) (argBU m c) r j (rowOf t r) ?_ ?_ ?_ ?_ ?_ ?_).trans rfl
  · intro k
    show V m c main_arg0 (((cfg0.win 0).blk t).view.emb (ix2 r k)) = argX m c (ix2 (rowOf t r) k)
    refine congrArg _ (funext fun a => Fin.ext ?_)
    match a with
    | ⟨0, _⟩ => show win0_0.index t (0 : Fin 2) * 256 + 1 * r.val = t.val * 256 + r.val; omega
    | ⟨1, _⟩ => show win0_0.index t (1 : Fin 2) * 1024 + 1 * k.val = k.val; omega
  · intro k
    show V m c main_arg1 (((cfg0.win 1).blk t).view.emb (ix2 r k)) = argH m c (ix2 (rowOf t r) k)
    refine congrArg _ (funext fun a => Fin.ext ?_)
    match a with
    | ⟨0, _⟩ => show win0_1.index t (0 : Fin 2) * 256 + 1 * r.val = t.val * 256 + r.val; omega
    | ⟨1, _⟩ => show win0_1.index t (1 : Fin 2) * 1024 + 1 * k.val = k.val; omega
  · show V m c main_arg2 (((cfg0.win 2).blk t).view.emb (ix2 r j)) = argC m c (ix2 (rowOf t r) j)
    refine congrArg _ (funext fun a => Fin.ext ?_)
    match a with
    | ⟨0, _⟩ => show win0_2.index t (0 : Fin 2) * 256 + 1 * r.val = t.val * 256 + r.val; omega
    | ⟨1, _⟩ => show win0_2.index t (1 : Fin 2) * 1024 + 1 * j.val = j.val; omega
  · intro g n hn k
    show V m c main_v1 (((cfg0.win 3).blk t).view.emb (ix2 n k)) = argW m c (ix3 g j k)
    have e : ((cfg0.win 3).blk t).view.emb (ix2 n k) = ix2 n k := by
      funext a; apply Fin.ext
      match a with
      | ⟨0, _⟩ => show win0_3.index t (0 : Fin 2) * 4096 + 1 * n.val = n.val; omega
      | ⟨1, _⟩ => show win0_3.index t (1 : Fin 2) * 1024 + 1 * k.val = k.val; omega
    rw [e]
    exact wCat_at m c g j k n hn
  · intro g n hn k
    show V m c main_v3 (((cfg0.win 4).blk t).view.emb (ix2 n k)) = argU m c (ix3 g j k)
    have e : ((cfg0.win 4).blk t).view.emb (ix2 n k) = ix2 n k := by
      funext a; apply Fin.ext
      match a with
      | ⟨0, _⟩ => show win0_4.index t (0 : Fin 2) * 4096 + 1 * n.val = n.val; omega
      | ⟨1, _⟩ => show win0_4.index t (1 : Fin 2) * 1024 + 1 * k.val = k.val; omega
    rw [e]
    exact uCat_at m c g j k n hn
  · intro g n hn
    show V m c main_v5 (((cfg0.win 5).blk t).view.emb (ix2 0 n)) = argBW m c (ix2 g j) + argBU m c (ix2 g j)
    have e : ((cfg0.win 5).blk t).view.emb (ix2 0 n) = ix2 0 n := by
      funext a; apply Fin.ext
      match a with
      | ⟨0, _⟩ => show win0_5.index t (0 : Fin 2) * 1 + 1 * 0 = 0; omega
      | ⟨1, _⟩ => show win0_5.index t (1 : Fin 2) * 4096 + 1 * n.val = n.val; omega
    rw [e]
    exact biasCat_at m c g j n hn

/-- An index of the array is in point `t`'s block iff each coordinate is in the block's range on its axis. -/
theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_1).slice (win0_7.rect t)).set ↔ _
  rw [View.set_slice_whole, Rect.mem_set_unit]
  exact Iff.rfl

/-- Every index of the array is in the block of the point that handles its batch rows: row `b` belongs to point `b / 256`. -/
theorem cover7 (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  let t : Fin cfg0.N := ⟨(i 0).val / 256, by show (i 0).val / 256 < 16; omega⟩
  obtain ⟨a0, a0', a1, a1', a2, a2', a3, a3', a4, a4', a5, a5', a6, a6', a7, a7'⟩ := idx_facts t
  have htv : t.val = (i 0).val / 256 := rfl
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- THE ARRAY after the run is the specification's. -/
theorem final7 (c : Dev nD) :
    (dats m 0 c).arrAt 7 cfg0.N = LstmSpec.cellArr (argX m c) (argH m c) (argC m c) (argW m c) (argU m c) (argBW m c) (argBU m c) :=
  (dats m 0 c).arrAt_eq_of_cover 7 _ (fun t _ => flushed7_eq m c t) cover7

/-- An index of the array is in point `t`'s block iff each coordinate is in the block's range on its axis. -/
theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6_0).slice (win0_6.rect t)).set ↔ _
  rw [View.set_slice_whole, Rect.mem_set_unit]
  exact Iff.rfl

/-- Every index of the array is in the block of the point that handles its batch rows: row `b` belongs to point `b / 256`. -/
theorem cover6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  let t : Fin cfg0.N := ⟨(i 0).val / 256, by show (i 0).val / 256 < 16; omega⟩
  obtain ⟨a0, a0', a1, a1', a2, a2', a3, a3', a4, a4', a5, a5', a6, a6', a7, a7'⟩ := idx_facts t
  have htv : t.val = (i 0).val / 256 := rfl
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- THE ARRAY after the run is the specification's. -/
theorem final6 (c : Dev nD) :
    (dats m 0 c).arrAt 6 cfg0.N = LstmSpec.hidArr (argX m c) (argH m c) (argC m c) (argW m c) (argU m c) (argBW m c) (argBU m c) :=
  (dats m 0 c).arrAt_eq_of_cover 6 _ (fun t _ => flushed6_eq m c t) cover6

/-! ## The run, read -/

/-- The kernel's run re-posted: the hidden-state and cell-state arrays at the specification's, the arguments unchanged. -/
theorem run : θ_run defs (onTc (τ := τ) (main (F := Ideal))) ⟨m, fun _ => 0, ρ⟩ fun r => ∀ c : Dev nD,
      r.2.mem ((c : Thread nD τ).loc main_v6_0) = LstmSpec.hidArr (argX m c) (argH m c) (argC m c) (argW m c) (argU m c) (argBW m c) (argBU m c)
      ∧ r.2.mem ((c : Thread nD τ).loc main_v6_1) = LstmSpec.cellArr (argX m c) (argH m c) (argC m c) (argW m c) (argU m c) (argBW m c) (argBU m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Value.run_blocks m ρ)

end Cert.KernelIdeal.Cell

end
-- ==== Proof.ReferenceCell.lean ====
/-
  The reference program's two results, read at an index, are the LSTM cell of LstmSpec.

  The reference forms a `[4, 4096, 1024]` tensor of pre-activations: for each gate a dot product of the weights with the
  activations (written weight times activation, with the batch axis moved into the middle by a transpose), plus that
  gate's bias broadcast over the batch, for the input side and for the hidden side, the two sides then added. At
  `[g, b, j]` that is `(∑ₖ W[g,j,k]·x[b,k] + bW[g,j]) + (∑ₖ U[g,j,k]·h[b,k] + bU[g,j])`, the specification's `gate g b j`
  with the four summands grouped bias-first (`LstmSpec.gate_biasFirst`). Each gate is then sliced out along the leading
  axis and reshaped to `[4096, 1024]`, which keeps `(b, j)`; three go through `1 / (1 + e^(-t))`, the logistic
  function, and the fourth through the hyperbolic tangent; the products and the sum are the specification's.
-/
import proofs.«151463_j80891414053127_2_alg».proof.Proof.Gen.ReferenceIdeal.Read
import proofs.«151463_j80891414053127_2_alg».proof.Proof.LstmSpec

noncomputable section

namespace Cert.ReferenceIdeal.Cell

open Cert.ReferenceIdeal Cert.ReferenceIdeal.Gen Cert.ReferenceIdeal.Read Idealize.ShloMosaic Idealize.ShloMosaic.ValueIdx

/-- THE PRE-ACTIVATION TENSOR at `[g, b, j]` is the specification's gate `g` at `(b, j)`. -/
theorem gate_at (x0 x1 : (⟨S4096x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (g : Fin 4) (b : Fin 4096) (j : Fin 1024) :
    val_main_v10 (F := Ideal) x0 x1 x3 x4 x5 x6 (ix3 g b j) = LstmSpec.gate x0 x1 x3 x5 x4 x6 g b j := by
  rw [val_main_v10_apply, val_main_v4_apply, val_main_v9_apply, val_main_v1_apply, val_main_v3_apply, val_main_v2_apply,
    val_main_v0_apply, val_main_v6_apply, val_main_v8_apply, val_main_v7_apply, val_main_v5_apply,
    ← LstmSpec.gate_biasFirst]
  have eW : ∀ k : Fin 1024, lidx_main_v0 (idx_main_v1 (ix3 g b j)) k = ix3 g j k := fun k => funext fun a => by
    match a with | ⟨0, _⟩ => rfl | ⟨1, _⟩ => rfl | ⟨2, _⟩ => rfl
  have ex : ∀ k : Fin 1024, ridx_main_v0 (idx_main_v1 (ix3 g b j)) k = ix2 b k := fun k => funext fun a => by
    match a with | ⟨0, _⟩ => rfl | ⟨1, _⟩ => rfl
  have eU : ∀ k : Fin 1024, lidx_main_v5 (idx_main_v6 (ix3 g b j)) k = ix3 g j k := fun k => funext fun a => by
    match a with | ⟨0, _⟩ => rfl | ⟨1, _⟩ => rfl | ⟨2, _⟩ => rfl
  have eh : ∀ k : Fin 1024, ridx_main_v5 (idx_main_v6 (ix3 g b j)) k = ix2 b k := fun k => funext fun a => by
    match a with | ⟨0, _⟩ => rfl | ⟨1, _⟩ => rfl
  have ebW : idx_main_v2 (idx_main_v3 (ix3 g b j)) = ix2 g j := funext fun a => by
    match a with | ⟨0, _⟩ => rfl | ⟨1, _⟩ => rfl
  have ebU : idx_main_v7 (idx_main_v8 (ix3 g b j)) = ix2 g j := funext fun a => by
    match a with | ⟨0, _⟩ => rfl | ⟨1, _⟩ => rfl
  simp only [eW, ex, eU, eh, ebW, ebU]
  rfl

/-- Gate 0's slice of the pre-activation tensor, dropped to rank 2, at `(b, j)`: the tensor at `[0, b, j]`. -/
theorem slice0_at (x0 x1 : (⟨S4096x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (b : Fin 4096) (j : Fin 1024) :
    val_main_v12 (F := Ideal) x0 x1 x3 x4 x5 x6 (ix2 b j) = val_main_v10 (F := Ideal) x0 x1 x3 x4 x5 x6 (ix3 0 b j) := by
  have h0 : b.val < 4096 := b.isLt
  have h1 : j.val < 1024 := j.isLt
  refine (val_main_v12_apply x0 x1 x3 x4 x5 x6 (ix2 b j)).trans ((val_main_v11_apply x0 x1 x3 x4 x5 x6 _).trans ?_)
  refine congrArg _ (funext fun a => Fin.ext ?_)
  match a with
  | ⟨0, _⟩ => show (0 : Nat) = 0; rfl
  | ⟨1, _⟩ => show (b.val * 1024 + j.val) / 1024 % 4096 = b.val; omega
  | ⟨2, _⟩ => show (b.val * 1024 + j.val) % 1024 = j.val; omega

/-- Gate 1's slice of the pre-activation tensor, dropped to rank 2, at `(b, j)`: the tensor at `[1, b, j]`. -/
theorem slice1_at (x0 x1 : (⟨S4096x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (b : Fin 4096) (j : Fin 1024) :
    val_main_v20 (F := Ideal) x0 x1 x3 x4 x5 x6 (ix2 b j) = val_main_v10 (F := Ideal) x0 x1 x3 x4 x5 x6 (ix3 1 b j) := by
  have h0 : b.val < 4096 := b.isLt
  have h1 : j.val < 1024 := j.isLt
  refine (val_main_v20_apply x0 x1 x3 x4 x5 x6 (ix2 b j)).trans ((val_main_v19_apply x0 x1 x3 x4 x5 x6 _).trans ?_)
  refine congrArg _ (funext fun a => Fin.ext ?_)
  match a with
  | ⟨0, _⟩ => show 1 + 0 = 1; omega
  | ⟨1, _⟩ => show (b.val * 1024 + j.val) / 1024 % 4096 = b.val; omega
  | ⟨2, _⟩ => show (b.val * 1024 + j.val) % 1024 = j.val; omega

/-- Gate 2's slice of the pre-activation tensor, dropped to rank 2, at `(b, j)`: the tensor at `[2, b, j]`. -/
theorem slice2_at (x0 x1 : (⟨S4096x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (b : Fin 4096) (j : Fin 1024) :
    val_main_v28 (F := Ideal) x0 x1 x3 x4 x5 x6 (ix2 b j) = val_main_v10 (F := Ideal) x0 x1 x3 x4 x5 x6 (ix3 2 b j) := by
  have h0 : b.val < 4096 := b.isLt
  have h1 : j.val < 1024 := j.isLt
  refine (val_main_v28_apply x0 x1 x3 x4 x5 x6 (ix2 b j)).trans ((val_main_v27_apply x0 x1 x3 x4 x5 x6 _).trans ?_)
  refine congrArg _ (funext fun a => Fin.ext ?_)
  match a with
  | ⟨0, _⟩ => show 2 + 0 = 2; omega
  | ⟨1, _⟩ => show (b.val * 1024 + j.val) / 1024 % 4096 = b.val; omega
  | ⟨2, _⟩ => show (b.val * 1024 + j.val) % 1024 = j.val; omega

/-- Gate 3's slice of the pre-activation tensor, dropped to rank 2, at `(b, j)`: the tensor at `[3, b, j]`. -/
theorem slice3_at (x0 x1 : (⟨S4096x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (b : Fin 4096) (j : Fin 1024) :
    val_main_v36 (F := Ideal) x0 x1 x3 x4 x5 x6 (ix2 b j) = val_main_v10 (F := Ideal) x0 x1 x3 x4 x5 x6 (ix3 3 b j) := by
  have h0 : b.val < 4096 := b.isLt
  have h1 : j.val < 1024 := j.isLt
  refine (val_main_v36_apply x0 x1 x3 x4 x5 x6 (ix2 b j)).trans ((val_main_v35_apply x0 x1 x3 x4 x5 x6 _).trans ?_)
  refine congrArg _ (funext fun a => Fin.ext ?_)
  match a with
  | ⟨0, _⟩ => show 3 + 0 = 3; omega
  | ⟨1, _⟩ => show (b.val * 1024 + j.val) / 1024 % 4096 = b.val; omega
  | ⟨2, _⟩ => show (b.val * 1024 + j.val) % 1024 = j.val; omega

/-- Gate 0 after the logistic function (spelt on the host as `1 / (1 + e^(-t))`) at `(b, j)`. -/
theorem inputGate_at (x0 x1 : (⟨S4096x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (b : Fin 4096) (j : Fin 1024) :
    val_main_v18 (F := Ideal) x0 x1 x3 x4 x5 x6 (ix2 b j) = Ideal.logistic (LstmSpec.gate x0 x1 x3 x5 x4 x6 0 b j) := by
  have e : val_main_v12 (F := Ideal) x0 x1 x3 x4 x5 x6 (ix2 b j) = LstmSpec.gate x0 x1 x3 x5 x4 x6 0 b j :=
    (slice0_at x0 x1 x3 x4 x5 x6 b j).trans (gate_at x0 x1 x3 x4 x5 x6 0 b j)
  rw [val_main_v18_apply, val_main_v17_apply, val_main_cst_0_apply, val_main_v16_apply, val_main_v15_apply,
    val_main_cst_apply, val_main_v14_apply, val_main_v13_apply, e]
  exact LstmSpec.logistic_spelt _

/-- Gate 1 after the logistic function (spelt on the host as `1 / (1 + e^(-t))`) at `(b, j)`. -/
theorem forgetGate_at (x0 x1 : (⟨S4096x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (b : Fin 4096) (j : Fin 1024) :
    val_main_v26 (F := Ideal) x0 x1 x3 x4 x5 x6 (ix2 b j) = Ideal.logistic (LstmSpec.gate x0 x1 x3 x5 x4 x6 1 b j) := by
  have e : val_main_v20 (F := Ideal) x0 x1 x3 x4 x5 x6 (ix2 b j) = LstmSpec.gate x0 x1 x3 x5 x4 x6 1 b j :=
    (slice1_at x0 x1 x3 x4 x5 x6 b j).trans (gate_at x0 x1 x3 x4 x5 x6 1 b j)
  rw [val_main_v26_apply, val_main_v25_apply, val_main_cst_2_apply, val_main_v24_apply, val_main_v23_apply,
    val_main_cst_1_apply, val_main_v22_apply, val_main_v21_apply, e]
  exact LstmSpec.logistic_spelt _

/-- Gate 2 after the logistic function (spelt on the host as `1 / (1 + e^(-t))`) at `(b, j)`. -/
theorem outputGate_at (x0 x1 : (⟨S4096x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (b : Fin 4096) (j : Fin 1024) :
    val_main_v34 (F := Ideal) x0 x1 x3 x4 x5 x6 (ix2 b j) = Ideal.logistic (LstmSpec.gate x0 x1 x3 x5 x4 x6 2 b j) := by
  have e : val_main_v28 (F := Ideal) x0 x1 x3 x4 x5 x6 (ix2 b j) = LstmSpec.gate x0 x1 x3 x5 x4 x6 2 b j :=
    (slice2_at x0 x1 x3 x4 x5 x6 b j).trans (gate_at x0 x1 x3 x4 x5 x6 2 b j)
  rw [val_main_v34_apply, val_main_v33_apply, val_main_cst_4_apply, val_main_v32_apply, val_main_v31_apply,
    val_main_cst_3_apply, val_main_v30_apply, val_main_v29_apply, e]
  exact LstmSpec.logistic_spelt _

/-- The candidate (gate 3 after the hyperbolic tangent) at `(b, j)`. -/
theorem candidate_at (x0 x1 : (⟨S4096x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (b : Fin 4096) (j : Fin 1024) :
    val_main_v37 (F := Ideal) x0 x1 x3 x4 x5 x6 (ix2 b j) = Ideal.tanh (LstmSpec.gate x0 x1 x3 x5 x4 x6 3 b j) := by
  have e : val_main_v36 (F := Ideal) x0 x1 x3 x4 x5 x6 (ix2 b j) = LstmSpec.gate x0 x1 x3 x5 x4 x6 3 b j :=
    (slice3_at x0 x1 x3 x4 x5 x6 b j).trans (gate_at x0 x1 x3 x4 x5 x6 3 b j)
  rw [val_main_v37_apply, e]
  rfl

/-- The reference's new cell state at `(b, j)` is the specification's. -/
theorem cell_at (x0 x1 x2 : (⟨S4096x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (b : Fin 4096) (j : Fin 1024) :
    val_main_v40 (F := Ideal) x0 x1 x2 x3 x4 x5 x6 (ix2 b j) = LstmSpec.cellNew x0 x1 x2 x3 x5 x4 x6 b j := by
  rw [val_main_v40_apply, val_main_v38_apply, val_main_v39_apply, inputGate_at, candidate_at, forgetGate_at]
  rfl

/-- The reference's new hidden state at `(b, j)` is the specification's. -/
theorem hidden_at (x0 x1 x2 : (⟨S4096x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (b : Fin 4096) (j : Fin 1024) :
    val_main_v42 (F := Ideal) x0 x1 x2 x3 x4 x5 x6 (ix2 b j) = LstmSpec.hidNew x0 x1 x2 x3 x5 x4 x6 b j := by
  rw [val_main_v42_apply, val_main_v41_apply, outputGate_at, cell_at]
  rfl

/-- THE REFERENCE'S NEW CELL STATE is the specification's. -/
theorem cell_eq (x0 x1 x2 : (⟨S4096x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) :
    val_main_v40 (F := Ideal) x0 x1 x2 x3 x4 x5 x6 = LstmSpec.cellArr x0 x1 x2 x3 x5 x4 x6 := by
  funext i
  obtain ⟨b, j, rfl⟩ : ∃ (b : Fin 4096) (j : Fin 1024), i = ix2 b j := ⟨i 0, i 1, eq_ix2 i⟩
  exact cell_at x0 x1 x2 x3 x4 x5 x6 b j

/-- THE REFERENCE'S NEW HIDDEN STATE is the specification's. -/
theorem hidden_eq (x0 x1 x2 : (⟨S4096x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) :
    val_main_v42 (F := Ideal) x0 x1 x2 x3 x4 x5 x6 = LstmSpec.hidArr x0 x1 x2 x3 x5 x4 x6 := by
  funext i
  obtain ⟨b, j, rfl⟩ : ∃ (b : Fin 4096) (j : Fin 1024), i = ix2 b j := ⟨i 0, i 1, eq_ix2 i⟩
  exact hidden_at x0 x1 x2 x3 x4 x5 x6 b j

end Cert.ReferenceIdeal.Cell

end
-- ==== Proof.lean ====
/-
  An LSTM cell step: the fused kernel against its reference, on the extended reals.

  Both programs take a batch of inputs `x`, the previous hidden and cell states `h`, `c`, and the stacked weights and
  biases `W`, `bW` (input side) and `U`, `bU` (hidden side) of the four gates, and return the new hidden and cell states.
  For batch row `b` and hidden unit `j`, gate `g` has the pre-activation

      gate g b j = ∑ₖ x[b,k]·W[g,j,k] + ∑ₖ h[b,k]·U[g,j,k] + bW[g,j] + bU[g,j],

  the new cell state is `σ(gate 0)·tanh(gate 3) + σ(gate 1)·c[b,j]` and the new hidden state `σ(gate 2)·tanh(new cell)`
  (Proof/LstmSpec.lean).

  The kernel stacks the four gates' weights into one `[4096, 1024]` matrix per side (gate-major rows) and the two biases
  into one summed row, and at each of 16 grid points multiplies a block of 256 batch rows against the stacked weights,
  adds the two products and the bias row, slices the gates out of the columns and finishes pointwise
  (Proof/GatePayload.lean, Proof/StackedWeights.lean, Proof/KernelCell.lean). The reference computes a
  `[4, 4096, 1024]` tensor of pre-activations with each bias added to its own product, slices the gates along the
  leading axis, and spells the logistic function as `1 / (1 + e^(-t))` (Proof/ReferenceCell.lean). On the extended
  reals a change of float format is the identity, that spelling IS the logistic function, and the two groupings of a
  pre-activation's four summands agree because addition is commutative and associative and multiplication commutative
  with no side condition at the infinities — so the two programs compute one function, and the proof never uses that
  the inputs are finite.

  The three frame claims are the generated frame runs (the reference's is its generated run with the results dropped);
  the kernel's idealization rewrote no operation, so there is nothing to preserve.
-/
import proofs.«151463_j80891414053127_2_alg».proof.Defs
import proofs.«151463_j80891414053127_2_alg».proof.Proof.Gen.Kernel
import proofs.«151463_j80891414053127_2_alg».proof.Proof.Gen.Kernel.Skeleton
import proofs.«151463_j80891414053127_2_alg».proof.Proof.Gen.Kernel.Launch
import proofs.«151463_j80891414053127_2_alg».proof.Proof.Gen.Kernel.Points
import proofs.«151463_j80891414053127_2_alg».proof.Proof.Gen.Kernel.Frame
import proofs.«151463_j80891414053127_2_alg».proof.Proof.Gen.KernelIdeal
import proofs.«151463_j80891414053127_2_alg».proof.Proof.Gen.KernelIdeal.Skeleton
import proofs.«151463_j80891414053127_2_alg».proof.Proof.Gen.KernelIdeal.Launch
import proofs.«151463_j80891414053127_2_alg».proof.Proof.Gen.KernelIdeal.Points
import proofs.«151463_j80891414053127_2_alg».proof.Proof.Gen.KernelIdeal.Frame
import proofs.«151463_j80891414053127_2_alg».proof.Proof.Gen.ReferenceIdeal
import proofs.«151463_j80891414053127_2_alg».proof.Proof.Gen.Pre_finite_inputs
import proofs.«151463_j80891414053127_2_alg».proof.Proof.Gen.KernelIdeal.Value
import proofs.«151463_j80891414053127_2_alg».proof.Proof.Gen.ReferenceIdeal.Run
import proofs.«151463_j80891414053127_2_alg».proof.Proof.Gen.ReferenceIdeal.Read
import proofs.«151463_j80891414053127_2_alg».proof.Proof.KernelCell
import proofs.«151463_j80891414053127_2_alg».proof.Proof.ReferenceCell
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the seven arguments both programs end with the new hidden state and the new cell state
    of the specification: the kernel by its blocks (`Cert.KernelIdeal.Cell.run`), the reference by its operations read
    at an index (`Cert.ReferenceIdeal.Cell.hidden_eq`, `cell_eq`). -/
theorem algebraic : Cert.algebraic_KernelIdeal_ReferenceIdeal := by
  intro m ρ m' ρ' _ hagree
  refine ⟨_, _, Cert.KernelIdeal.Cell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v42_eq, Cert.ReferenceIdeal.Cell.hidden_eq, a0, a1, a2, a3, a4, a5, a6]
  · obtain ⟨a0, a1, a2, a3, a4, a5, a6⟩ := hagree c
    refine (Cert.ReferenceIdeal.Read.val_main_v40_eq (F := Ideal) _ _ _ _ _ _ _).trans ?_
    rw [Cert.ReferenceIdeal.Cell.cell_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
